-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x4096 : Shape := ⟨2, ![2048, 4096]⟩
abbrev S4096x2048 : Shape := ⟨2, ![4096, 2048]⟩
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .i32⟩
  | .hbm, ⟨1, _⟩ => ⟨S4096x2048, .i32⟩
  | .hbm, ⟨2, _⟩ => ⟨S2048x2048, .f32⟩
  | .local _ .vmem, ⟨0, _⟩ => ⟨S512x1024, .i32⟩
  | .local _ .vmem, ⟨1, _⟩ => ⟨S512x1024, .i32⟩
  | .local _ .vmem, ⟨2, _⟩ => ⟨S1024x512, .i32⟩
  | .local _ .vmem, ⟨3, _⟩ => ⟨S1024x512, .i32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .i32 = 32 ∨ (Rect.block (s := S2048x4096) S512x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x2048.size a
  hwx0_1 : ∀ i : grid0.Coords, EltTy.bits .i32 = 32 ∨ (Rect.block (s := S4096x2048) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x2048 : Shape := ⟨2, ![4096, 2048]⟩
abbrev S_ : Shape := ⟨0, ![]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .i32⟩
  | .hbm, ⟨1, _⟩ => ⟨S4096x2048, .i32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S2048x2048, .f32⟩
  | _, _ => ⟨S2048x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  bcast_S_S4096x2048 : S_.BroadcastsInDim S4096x2048 (![] : Fin 0 → Fin S4096x2048.rank)
  dot_S2048x4096_S4096x2048_S2048x2048_1_0_0_1_n_n_wf : DotDims.WF S2048x4096 S4096x2048 S2048x2048 [1] [0] [0] [1] [] []

variable [Facts₀]

def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.Spec.lean ====
/-
  The mathematics of the claim, with no program in sight.

  A quantized matrix product.  Two integer matrices X : [2048, 4096] and Y : [4096, 2048] are dequantized entry by
  entry — an entry v of X is read as the real (v - 65) · s, an entry of Y as (v - 160) · s', with s and s' two
  fixed float constants kept as their bit patterns (the same patterns occur on both sides of the claim, so their
  values never matter) — and multiplied:  the (p, q) entry of the result is the sum over k : Fin 4096 of
  dqx (X (p, k)) * dqy (Y (k, q)), an extended real.

  One side of the claim forms that sum at once; the other forms it in four consecutive stretches of 1024 terms, each
  added to what the stretches before left, starting from zero.  The two agree because addition of extended reals is
  commutative and associative: `sum_blocks` regroups a sum over 4096 as four sums over 1024.  No finiteness is used.
-/
import Idealize.ShloMosaic.PureOps.Ideal
import Idealize.ShloMosaic.Lib.ValueIdx

noncomputable section

open scoped BigOperators

namespace Cert.QuantMatmul

open Idealize.ShloMosaic Idealize.ShloMosaic.ValueIdx

/-- An entry of the left matrix, dequantized: the integer read signed, minus the zero point 65, times the scale. -/
def dqx (v : BitVec 32) : Ideal .f32 :=
  (FloatOps.sitofp (F := Ideal) .f32 v - Ideal.ofBits .f32 0x42820000#32) * Ideal.ofBits .f32 0x3E4BC6A8#32

/-- An entry of the right matrix, dequantized: the integer read signed, minus the zero point 160, times the scale. -/
def dqy (v : BitVec 32) : Ideal .f32 :=
  (FloatOps.sitofp (F := Ideal) .f32 v - Ideal.ofBits .f32 0x43200000#32) * Ideal.ofBits .f32 0x3CB020C5#32

/-- The k-th term of entry (p, q) of the product: the dequantized X (p, k) times the dequantized Y (k, q). -/
def term (X : (⟨2, ![2048, 4096]⟩ : Shape).Idx → BitVec 32) (Y : (⟨2, ![4096, 2048]⟩ : Shape).Idx → BitVec 32)
    (p q : Fin 2048) (k : Fin 4096) : Ideal .f32 :=
  dqx (X (ix2 p k)) * dqy (Y (ix2 k q))

/-- THE RESULT: entry j of the product of the two dequantized matrices, one sum over the contracted coordinate. -/
def result (X : (⟨2, ![2048, 4096]⟩ : Shape).Idx → BitVec 32) (Y : (⟨2, ![4096, 2048]⟩ : Shape).Idx → BitVec 32) :
    (⟨2, ![2048, 2048]⟩ : Shape).Idx → Ideal .f32 :=
  fun j => ∑ k : Fin 4096, term X Y (j 0) (j 1) k

/-- A sum over `b * a` naturals is `a` consecutive stretches of `b` terms, in any commutative monoid. -/
theorem sum_range_blocks {M : Type*} [AddCommMonoid M] (f : ℕ → M) (b : ℕ) :
    ∀ a : ℕ, ∑ s ∈ Finset.range a, ∑ k ∈ Finset.range b, f (b * s + k) = ∑ k ∈ Finset.range (b * a), f k
  | 0 => by simp
  | a + 1 => by
    rw [Finset.sum_range_succ, sum_range_blocks f b a, Nat.mul_succ, Finset.sum_range_add]

/-- Four stretches of 1024 terms are one sum over 4096. -/
theorem sum_blocks {M : Type*} [AddCommMonoid M] (f : ℕ → M) :
    ∑ s ∈ Finset.range 4, ∑ kk : Fin 1024, f (1024 * s + kk.val) = ∑ k : Fin 4096, f k.val := by
  rw [Fin.sum_univ_eq_sum_range (fun k => f k) 4096, show (4096 : ℕ) = 1024 * 4 from rfl, ← sum_range_blocks f 1024 4]
  exact Finset.sum_congr rfl fun s _ => Fin.sum_univ_eq_sum_range (fun k => f (1024 * s + k)) 1024

/-- An integer matrix read at natural coordinates: its entry where the coordinates lie inside it, 0 elsewhere.  (It lets
    a term be named by plain naturals — a block's offset plus a position inside the block — with no bound in sight.) -/
def atN {n0 n1 : ℕ} (A : (⟨2, ![n0, n1]⟩ : Shape).Idx → BitVec 32) (a b : ℕ) : BitVec 32 :=
  if h : a < n0 ∧ b < n1 then A (ix2 ⟨a, h.1⟩ ⟨b, h.2⟩) else 0

theorem atN_ix2 {n0 n1 : ℕ} (A : (⟨2, ![n0, n1]⟩ : Shape).Idx → BitVec 32) (a : Fin n0) (b : Fin n1) :
    atN A a.val b.val = A (ix2 a b) := by
  unfold atN; rw [dif_pos ⟨a.isLt, b.isLt⟩]

/-- The k-th term of entry (r, cc), at natural coordinates. -/
def termN (X : (⟨2, ![2048, 4096]⟩ : Shape).Idx → BitVec 32) (Y : (⟨2, ![4096, 2048]⟩ : Shape).Idx → BitVec 32)
    (r cc k : ℕ) : Ideal .f32 :=
  dqx (atN X r k) * dqy (atN Y k cc)

/-- Entry (p, q) of the result, its terms named by naturals. -/
theorem result_apply (X : (⟨2, ![2048, 4096]⟩ : Shape).Idx → BitVec 32) (Y : (⟨2, ![4096, 2048]⟩ : Shape).Idx → BitVec 32)
    (p q : Fin 2048) : result X Y (ix2 p q) = ∑ k : Fin 4096, termN X Y p.val q.val k.val := by
  show ∑ k : Fin 4096, term X Y p q k = _
  refine Finset.sum_congr rfl fun k _ => ?_
  unfold term termN; rw [atN_ix2, atN_ix2]

/-- Entry (p, q) of the result as four stretches of 1024 terms: the form in which a blocked accumulation meets it. -/
theorem result_apply_blocks (X : (⟨2, ![2048, 4096]⟩ : Shape).Idx → BitVec 32)
    (Y : (⟨2, ![4096, 2048]⟩ : Shape).Idx → BitVec 32) (p q : Fin 2048) :
    result X Y (ix2 p q) = ∑ s ∈ Finset.range 4, ∑ kk : Fin 1024, termN X Y p.val q.val (1024 * s + kk.val) :=
  (result_apply X Y p q).trans (sum_blocks (fun k => termN X Y p.val q.val k)).symm

end Cert.QuantMatmul

end
-- ==== Proof.RefIs.lean ====
/-
  The reference computes the specification.

  The reference dequantizes both matrices entry by entry and contracts them with one matrix product.  Read at an
  index (p, q), that product is the sum over k : Fin 4096 of the left operand at (p, k) times the right operand at
  (k, q); each operand entry is the dequantized integer.  So the reference's result is `QuantMatmul.result`, term by
  term: nothing is rearranged on this side.
-/
import proofs.«156814_j18940805775746_1_alg».proof.Proof.Gen.ReferenceIdeal.Read
import proofs.«156814_j18940805775746_1_alg».proof.Proof.Spec

noncomputable section

open scoped BigOperators

namespace Cert.ReferenceIdeal.RefValue

open Cert.ReferenceIdeal Cert.ReferenceIdeal.Read Idealize.ShloMosaic Idealize.ShloMosaic.ValueIdx Cert.QuantMatmul

/-- The left operand's index for the k-th term of entry i: row of i, column k. -/
theorem lidx_eq (p q : Fin 2048) (k : Fin 4096) : lidx_main_v10 (ix2 p q) k = ix2 p k :=
  funext fun a => Fin.ext (by match a with | ⟨0, _⟩ => rfl | ⟨1, _⟩ => rfl)

/-- The right operand's index for the k-th term of entry i: row k, column of i. -/
theorem ridx_eq (p q : Fin 2048) (k : Fin 4096) : ridx_main_v10 (ix2 p q) k = ix2 k q :=
  funext fun a => Fin.ext (by match a with | ⟨0, _⟩ => rfl | ⟨1, _⟩ => rfl)

/-- The reference's last stage, as a function of the two integer matrices, is the product of the dequantized
    matrices: entry by entry the same sum of the same terms. -/
theorem stage_eq_result (X : (⟨S2048x4096, .i32⟩ : BufTy).Contents (Elt Ideal))
    (Y : (⟨S4096x2048, .i32⟩ : BufTy).Contents (Elt Ideal)) :
    val_main_v10 (F := Ideal) X Y = result X Y := by
  funext i
  obtain ⟨p, q, rfl⟩ : ∃ (p q : Fin 2048), i = ix2 p q := ⟨i 0, i 1, eq_ix2 i⟩
  rw [val_main_v10_apply]
  show _ = ∑ k : Fin 4096, term X Y p q k
  refine Finset.sum_congr rfl fun k _ => ?_
  unfold term
  rw [lidx_eq, ridx_eq, val_main_v4_apply, val_main_v2_apply, val_main_v0_apply, val_main_v1_apply, val_main_cst_apply,
    val_main_v3_apply, val_main_cst_0_apply, val_main_v9_apply, val_main_v7_apply, val_main_v5_apply, val_main_v6_apply,
    val_main_cst_1_apply, val_main_v8_apply, val_main_cst_2_apply]
  rfl

end Cert.ReferenceIdeal.RefValue

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.Pieces.lean ====
/-
  What one grid point leaves behind, as the body's arithmetic.

  The body keeps a 512 × 512 accumulator across the four points of a run along the contracted axis.  At the first
  point of a run it stores the zero block into the accumulator and then adds the point's block product to it; at the
  other points it adds the point's block product to what the point before left; at the last point it also copies the
  accumulator into the output block.  Writing `upd x y acc` for "acc plus the product of the dequantized blocks x and
  y" (the body's second payload) and `zero` for its first, the four statements below say:

    first point:   accumulator = upd x y zero
    other points:  accumulator = upd x y acc
    last point:    accumulator = upd x y acc,  output block = upd x y acc

  Each is read off the stores the body performs: every store covers the whole block at offset zero, so the last
  store's value is what the block holds, and a load after a store reads that store's value.  Nothing here depends on
  how floats are interpreted.
-/
import proofs.«156814_j18940805775746_1_alg».proof.Proof.Gen.KernelIdeal.Frame
import proofs.«156814_j18940805775746_1_alg».proof.Proof.LibBlock
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- First point of a run: the accumulator is zeroed, then the block product is added to that zero. -/
theorem acc_first (c : Dev nD) (i : grid0.Coords) (arg3 : Memref sig .tc .vmem S512x1024 .i32) (harg3 : arg3.IsWhole) (arg4 : Memref sig .tc .vmem S1024x512 .i32) (harg4 : arg4.IsWhole) (arg5 : Memref sig .tc .vmem S512x512 .f32) (harg5 : arg5.IsWhole) (arg6 : Memref sig .tc .vmem S512x512 .f32) (harg6 : arg6.IsWhole) (hc0 : cond0_0 i) (hc1 : ¬cond0_1 i)
    (x0 : Vec F S512x1024 .i32) (x1 : Vec F S1024x512 .i32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero Cert.LibBlock.hz, View.readCov_unit_zero _ Cert.LibBlock.hz]
  simp only [View.readAt_eq_ld, harg3.read_unread, harg4.read_unread, harg6.read_unread,
    View.ld_unit_zero (S := S512x1024) Cert.LibBlock.hz, View.ld_unit_zero (S := S1024x512) Cert.LibBlock.hz,
    View.ld_unit_zero (S := S512x512) Cert.LibBlock.hz]

/-- A middle point: the block product is added to what the point before left. -/
theorem acc_middle (c : Dev nD) (i : grid0.Coords) (arg3 : Memref sig .tc .vmem S512x1024 .i32) (harg3 : arg3.IsWhole) (arg4 : Memref sig .tc .vmem S1024x512 .i32) (harg4 : arg4.IsWhole) (arg5 : Memref sig .tc .vmem S512x512 .f32) (harg5 : arg5.IsWhole) (arg6 : Memref sig .tc .vmem S512x512 .f32) (harg6 : arg6.IsWhole) (hc0 : ¬cond0_0 i) (hc1 : ¬cond0_1 i)
    (x0 : Vec F S512x1024 .i32) (x1 : Vec F S1024x512 .i32) (xs0 : Vec F S512x512 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero Cert.LibBlock.hz]
  simp only [View.readAt_eq_ld, harg3.read_unread, harg4.read_unread, harg6.read_unread,
    View.ld_unit_zero (S := S512x1024) Cert.LibBlock.hz, View.ld_unit_zero (S := S1024x512) Cert.LibBlock.hz,
    View.ld_unit_zero (S := S512x512) Cert.LibBlock.hz]

/-- The last point of a run: the accumulator is updated the same way … -/
theorem acc_last (c : Dev nD) (i : grid0.Coords) (arg3 : Memref sig .tc .vmem S512x1024 .i32) (harg3 : arg3.IsWhole) (arg4 : Memref sig .tc .vmem S1024x512 .i32) (harg4 : arg4.IsWhole) (arg5 : Memref sig .tc .vmem S512x512 .f32) (harg5 : arg5.IsWhole) (arg6 : Memref sig .tc .vmem S512x512 .f32) (harg6 : arg6.IsWhole) (hc0 : ¬cond0_0 i) (hc1 : cond0_1 i)
    (x0 : Vec F S512x1024 .i32) (x1 : Vec F S1024x512 .i32) (xs0 : Vec F S512x512 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero Cert.LibBlock.hz]
  simp only [View.readAt_eq_ld, harg3.read_unread, harg4.read_unread, harg6.read_unread,
    View.ld_unit_zero (S := S512x1024) Cert.LibBlock.hz, View.ld_unit_zero (S := S1024x512) Cert.LibBlock.hz,
    View.ld_unit_zero (S := S512x512) Cert.LibBlock.hz]

/-- … and the output block receives the updated accumulator. -/
theorem out_last (c : Dev nD) (i : grid0.Coords) (arg3 : Memref sig .tc .vmem S512x1024 .i32) (harg3 : arg3.IsWhole) (arg4 : Memref sig .tc .vmem S1024x512 .i32) (harg4 : arg4.IsWhole) (arg5 : Memref sig .tc .vmem S512x512 .f32) (harg5 : arg5.IsWhole) (arg6 : Memref sig .tc .vmem S512x512 .f32) (harg6 : arg6.IsWhole) (hc0 : ¬cond0_0 i) (hc1 : cond0_1 i)
    (x0 : Vec F S512x1024 .i32) (x1 : Vec F S1024x512 .i32) (xs0 : Vec F S512x512 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero Cert.LibBlock.hz, View.readCov_unit_zero _ Cert.LibBlock.hz]
  simp only [View.readAt_eq_ld, harg3.read_unread, harg4.read_unread, harg6.read_unread,
    View.ld_unit_zero (S := S512x1024) Cert.LibBlock.hz, View.ld_unit_zero (S := S1024x512) Cert.LibBlock.hz,
    View.ld_unit_zero (S := S512x512) Cert.LibBlock.hz]

end Cert.KernelIdeal.Pieces

end
-- ==== Proof.Payload.lean ====
/-
  The body's arithmetic, entry by entry, on the extended reals.

  `zero`: every entry of the body's first payload is 0.

  `upd`: entry (p, q) of the body's second payload — the accumulator plus the product of the two dequantized
  blocks — is the accumulator's entry plus the sum over kk : Fin 1024 of dqx (x (p, kk)) * dqy (y (kk, q)).  The
  narrowing of the dequantized blocks to a 16-bit format before the product is the identity on the extended reals,
  and a matrix product into a zero accumulator is the plain sum of products over the contracted coordinate.
-/
import proofs.«156814_j18940805775746_1_alg».proof.Proof.Gen.KernelIdeal.Skeleton
import proofs.«156814_j18940805775746_1_alg».proof.Proof.LibBlock
import proofs.«156814_j18940805775746_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.QuantMatmul

/-- The zero block: every entry is 0. -/
theorem zero_apply (j : S512x512.Idx) : k0_pay1 (F := Ideal) j = 0 := by
  unfold k0_pay1
  refine (congrFun (shapeCast_self _ _) j).trans ?_
  exact Ideal.ofBits_zero_f32

/-- The update: entry (p, q) of "accumulator plus block product" is the accumulator's entry plus the 1024 products of
    the dequantized row p of x with the dequantized column q of y. -/
theorem upd_apply (x0 : Vec Ideal S512x1024 .i32) (x1 : Vec Ideal S1024x512 .i32) (acc : Vec Ideal S512x512 .f32)
    (p q : Fin 512) :
    k0_pay2 x0 x1 acc (ix2 p q) = acc (ix2 p q) + ∑ kk : Fin 1024, dqx (x0 (ix2 p kk)) * dqy (x1 (ix2 kk q)) := by
  unfold k0_pay2
  refine (congrFun (shapeCast_self _ _) (ix2 p q)).trans ?_
  refine congrArg (fun z => acc (ix2 p q) + z) ?_
  refine (Cert.LibBlock.matmul_zero_ix2 dot_S512x1024_S1024x512_S512x512_1_0_0_1_n_n rfl rfl rfl rfl rfl rfl none _ _ p q).trans ?_
  exact Finset.sum_congr rfl fun kk _ => rfl

end Cert.KernelIdeal.Payload

end
-- ==== Proof.Blocks.lean ====
/-
  Where a block sits in its array.

  The grid has 64 points, numbered t = 16·i + 4·j + k with i, j, k < 4: i is the row block of the result, j its column
  block, k the position along the contracted axis (the fastest coordinate).  At point t
    the left input's block is rows 512·i … and columns 1024·k … of X,
    the right input's block is rows 1024·k … and columns 512·j … of Y,
    the output's block is rows 512·i … and columns 512·j … of the result,
  with i = t / 16, j = (t / 4) % 4, k = t % 4.  The three index maps are decided once over the 64 points; an entry of a
  block is then the array's entry at the block's offset plus the position inside the block.
-/
import proofs.«156814_j18940805775746_1_alg».proof.Proof.Gen.KernelIdeal.Value
import proofs.«156814_j18940805775746_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Cert.QuantMatmul
open Idealize.SL Idealize.SL.Sem

variable {F : FTy → Type} [FloatOps F]
variable (m : (ℓ : Loc nD τ sig) → Buf (Elt F) ℓ)

/-- The left input's block index at point t: (t / 16, t % 4). -/
theorem idx_x : ∀ t : Fin cfg0.N, win0_0.index t (0 : Fin 2) = t.val / 16 ∧ win0_0.index t (1 : Fin 2) = t.val % 4 :=
  (by decide +kernel : ∀ t : Fin grid0.N, _)

/-- The right input's block index at point t: (t % 4, (t / 4) % 4). -/
theorem idx_y : ∀ t : Fin cfg0.N, win0_1.index t (0 : Fin 2) = t.val % 4 ∧ win0_1.index t (1 : Fin 2) = (t.val / 4) % 4 :=
  (by decide +kernel : ∀ t : Fin grid0.N, _)

/-- The output's block index at point t: (t / 16, (t / 4) % 4). -/
theorem idx_o : ∀ t : Fin cfg0.N, win0_2.index t (0 : Fin 2) = t.val / 16 ∧ win0_2.index t (1 : Fin 2) = (t.val / 4) % 4 :=
  (by decide +kernel : ∀ t : Fin grid0.N, _)

/-- Entry (p, kk) of the left input's block at point t is X at row 512·(t/16) + p, column 1024·(t%4) + kk. -/
theorem xblk_apply (c : Dev nD) (t : Fin cfg0.N) (p : Fin 512) (kk : Fin 1024) :
    (iblk m c 0 t : Vec F S512x1024 .i32) (ix2 p kk)
      = atN (n0 := 2048) (n1 := 4096) (m ((c : Thread nD τ).loc main_arg0)) (512 * (t.val / 16) + p.val) (1024 * (t.val % 4) + kk.val) := by
  have hN : t.val < 64 := lt_of_lt_of_eq t.isLt N_0
  have hi := idx_x t
  unfold iblk
  rw [View.read_apply]
  show V m c main_arg0 (((cfg0.win 0).blk t).view.emb (ix2 p kk)) = _
  have e : ((cfg0.win 0).blk t).view.emb (ix2 p kk)
      = ix2 (⟨512 * (t.val / 16) + p.val, by omega⟩ : Fin 2048) (⟨1024 * (t.val % 4) + kk.val, by omega⟩ : Fin 4096) := by
    funext a
    apply Fin.ext
    match a with
    | ⟨0, _⟩ => show win0_0.index t 0 * 512 + 1 * p.val = 512 * (t.val / 16) + p.val; rw [hi.1]; omega
    | ⟨1, _⟩ => show win0_0.index t 1 * 1024 + 1 * kk.val = 1024 * (t.val % 4) + kk.val; rw [hi.2]; omega
  refine (congrArg (V m c main_arg0) e).trans ?_
  exact (atN_ix2 (n0 := 2048) (n1 := 4096) _ ⟨512 * (t.val / 16) + p.val, by omega⟩ ⟨1024 * (t.val % 4) + kk.val, by omega⟩).symm

/-- Entry (kk, q) of the right input's block at point t is Y at row 1024·(t%4) + kk, column 512·((t/4)%4) + q. -/
theorem yblk_apply (c : Dev nD) (t : Fin cfg0.N) (kk : Fin 1024) (q : Fin 512) :
    (iblk m c 1 t : Vec F S1024x512 .i32) (ix2 kk q)
      = atN (n0 := 4096) (n1 := 2048) (m ((c : Thread nD τ).loc main_arg1)) (1024 * (t.val % 4) + kk.val) (512 * ((t.val / 4) % 4) + q.val) := by
  have hN : t.val < 64 := lt_of_lt_of_eq t.isLt N_0
  have hi := idx_y t
  unfold iblk
  rw [View.read_apply]
  show V m c main_arg1 (((cfg0.win 1).blk t).view.emb (ix2 kk q)) = _
  have e : ((cfg0.win 1).blk t).view.emb (ix2 kk q)
      = ix2 (⟨1024 * (t.val % 4) + kk.val, by omega⟩ : Fin 4096) (⟨512 * ((t.val / 4) % 4) + q.val, by omega⟩ : Fin 2048) := by
    funext a
    apply Fin.ext
    match a with
    | ⟨0, _⟩ => show win0_1.index t 0 * 1024 + 1 * kk.val = 1024 * (t.val % 4) + kk.val; rw [hi.1]; omega
    | ⟨1, _⟩ => show win0_1.index t 1 * 512 + 1 * q.val = 512 * ((t.val / 4) % 4) + q.val; rw [hi.2]; omega
  refine (congrArg (V m c main_arg1) e).trans ?_
  exact (atN_ix2 (n0 := 4096) (n1 := 2048) _ ⟨1024 * (t.val % 4) + kk.val, by omega⟩ ⟨512 * ((t.val / 4) % 4) + q.val, by omega⟩).symm

end Cert.KernelIdeal.Blocks

end
-- ==== Proof.Fold.lean ====
/-
  The accumulator along a run, as a sum.

  Fix a point t.  Its run is the four points 4·(t/4), …, 4·(t/4) + 3: same row block, same column block, the contracted
  position k = 0, 1, 2, 3.  Point n of the run adds to the accumulator its ADDEND: at block entry (r, cc) the 1024
  products  dqx X(512·(n/16) + r, 1024·(n%4) + kk) · dqy Y(1024·(n%4) + kk, 512·((n/4)%4) + cc),  kk < 1024.  The first point
  of the run adds its addend to 0.  So after point t the accumulator's entry is the sum of the addends of the points
  4·(t/4), …, t — a sum over a range, with no case split on the 64 points — and at the last point of a run, where the
  output block receives the accumulator, the output block's entry is the sum of all four addends.
-/
import proofs.«156814_j18940805775746_1_alg».proof.Proof.Gen.KernelIdeal.Value
import proofs.«156814_j18940805775746_1_alg».proof.Proof.Pieces
import proofs.«156814_j18940805775746_1_alg».proof.Proof.Payload
import proofs.«156814_j18940805775746_1_alg».proof.Proof.Blocks
import proofs.«156814_j18940805775746_1_alg».proof.Proof.Spec

set_option maxRecDepth 16384

noncomputable section

open scoped BigOperators

namespace Cert.KernelIdeal.Fold

open Cert.KernelIdeal Cert.KernelIdeal.Gen
open Idealize.ShloMosaic Idealize.ShloMosaic.TcCoe Idealize.ShloMosaic.ValueIdx Cert.QuantMatmul
open Idealize.SL Idealize.SL.Sem

variable (m : (ℓ : Loc nD τ sig) → Buf (Elt Ideal) ℓ)

/-- The left integer matrix, as launched. -/
abbrev argX (c : Dev nD) : (⟨2, ![2048, 4096]⟩ : Shape).Idx → BitVec 32 := m ((c : Thread nD τ).loc main_arg0)
/-- The right integer matrix, as launched. -/
abbrev argY (c : Dev nD) : (⟨2, ![4096, 2048]⟩ : Shape).Idx → BitVec 32 := m ((c : Thread nD τ).loc main_arg1)

/-- Point n's addend at block entry i: the 1024 products of its stretch of the contracted axis. -/
def addend (c : Dev nD) (n : ℕ) (i : S512x512.Idx) : Ideal .f32 :=
  ∑ kk : Fin 1024, termN (argX m c) (argY m c) (512 * (n / 16) + (i 0).val) (512 * ((n / 4) % 4) + (i 1).val)
    (1024 * (n % 4) + kk.val)

/-- The update at point t, entry by entry: the accumulator's entry plus the point's addend. -/
theorem upd_blocks (c : Dev nD) (t : Fin cfg0.N) (acc : Vec Ideal S512x512 .f32) (i : S512x512.Idx) :
    k0_pay2 (iblk m c 0 t) (iblk m c 1 t) acc i = acc i + addend m c t.val i := by
  obtain ⟨p, q, rfl⟩ : ∃ (p q : Fin 512), i = ix2 p q := ⟨i 0, i 1, eq_ix2 i⟩
  refine (Payload.upd_apply (iblk m c 0 t) (iblk m c 1 t) acc p q).trans ?_
  refine congrArg (fun z => acc (ix2 p q) + z) ?_
  refine Finset.sum_congr rfl fun kk _ => ?_
  rw [Blocks.xblk_apply m c t p kk, Blocks.yblk_apply m c t kk q]
  rfl

/-- What the first point of a run leaves in the accumulator: the update of the zero block. -/
theorem scAt_first (c : Dev nD) (n : ℕ) (hb : n < cfg0.N) (h0 : n % 4 = 0) (acc : Vec Ideal S512x512 .f32) :
    Value.scAt0_0 m c n hb acc = k0_pay2 (iblk m c 0 ⟨n, hb⟩) (iblk m c 1 ⟨n, hb⟩) (k0_pay1 (F := Ideal)) := by
  unfold Value.scAt0_0
  rw [dif_pos h0, dif_neg (by omega : ¬n % 4 = 3)]
  exact Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N))

/-- What any later point of a run leaves in it: the update of what the point before left. -/
theorem scAt_later (c : Dev nD) (n : ℕ) (hb : n < cfg0.N) (h0 : ¬n % 4 = 0) (acc : Vec Ideal S512x512 .f32) :
    Value.scAt0_0 m c n hb acc = k0_pay2 (iblk m c 0 ⟨n, hb⟩) (iblk m c 1 ⟨n, hb⟩) acc := by
  unfold Value.scAt0_0
  rw [dif_neg h0]
  by_cases h1 : n % 4 = 3
  · rw [dif_pos h1]
    exact Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc
  · rw [dif_neg h1]
    exact Pieces.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc

/-- THE ACCUMULATOR AFTER POINT t: the sum of the addends of its run's points up to t. -/
theorem scratch_after (c : Dev nD) (t : Fin cfg0.N) (i : S512x512.Idx) :
    (outsAt0 m c t.val t.isLt).2 i = ∑ s ∈ Finset.range (t.val % 4 + 1), addend m c (4 * (t.val / 4) + s) i := by
  have hN : t.val < 64 := lt_of_lt_of_eq t.isLt N_0
  refine (congrFun (Value.soutsAt0_0_eq m c t) i).trans ?_
  refine (Pipeline.accAt_add_apply (fun n h => Value.scAt0_0 m c n h (VS0_0.read (Elt Ideal) VS0_0.junk))
    (Value.scAt0_0 m c) (fun _ => 0) (addend m c) (4 * (t.val / 4)) 3 ?ha ?hg (t.val % 4) (by omega) _ i).trans ?_
  case ha =>
    intro h i
    show Value.scAt0_0 m c (4 * (t.val / 4)) h _ i = 0 + addend m c (4 * (t.val / 4)) i
    rw [scAt_first m c _ h (by omega), upd_blocks m c ⟨_, h⟩ _ i, Payload.zero_apply]
  case hg =>
    intro n h acc i hlt hle
    show Value.scAt0_0 m c n h acc i = acc i + addend m c n i
    rw [scAt_later m c n h (by omega) acc]
    exact upd_blocks m c ⟨n, h⟩ acc i
  show (0 : Ideal .f32) + _ = _
  exact zero_add _

/-- At the last point of a run the output block receives the accumulator. -/
theorem out_eq_scratch (c : Dev nD) (t : Fin cfg0.N) (h3 : t.val % 4 = 3) :
    (outsAt0 m c t.val t.isLt).1 = (outsAt0 m c t.val t.isLt).2 := by
  rw [outsAt0_C m c t (by omega) h3]
  dsimp only
  exact (Pieces.out_last c (grid0.coords t) (ms0_0 t) (hs0_0 t) (ms0_1 t) (hs0_1 t) (ms0_2 t) (hs0_2 t) scM0_0 (Memref.isWhole_whole _) _ _ (iblk m c 0 t) (iblk m c 1 t) _).trans (Pieces.acc_last c (grid0.coords t) (ms0_0 t) (hs0_0 t) (ms0_1 t) (hs0_1 t) (ms0_2 t) (hs0_2 t) scM0_0 (Memref.isWhole_whole _) _ _ (iblk m c 0 t) (iblk m c 1 t) _).symm

/-- THE OUTPUT BLOCK AT THE LAST POINT OF A RUN, entry (r, cc): the four stretches of 1024 products of row
    512·(t/16) + r of the dequantized X with column 512·((t/4)%4) + cc of the dequantized Y. -/
theorem out_at_flush (c : Dev nD) (t : Fin cfg0.N) (h3 : t.val % 4 = 3) (i : S512x512.Idx) :
    (outsAt0 m c t.val t.isLt).1 i
      = ∑ s ∈ Finset.range 4, ∑ kk : Fin 1024, termN (argX m c) (argY m c) (512 * (t.val / 16) + (i 0).val)
          (512 * ((t.val / 4) % 4) + (i 1).val) (1024 * s + kk.val) := by
  rw [out_eq_scratch m c t h3, scratch_after m c t i, h3]
  refine Finset.sum_congr rfl fun s hs => ?_
  have hs' : s < 4 := Finset.mem_range.mp hs
  have e1 : (4 * (t.val / 4) + s) / 16 = t.val / 16 := by omega
  have e2 : ((4 * (t.val / 4) + s) / 4) % 4 = (t.val / 4) % 4 := by omega
  have e3 : (4 * (t.val / 4) + s) % 4 = s := by omega
  unfold addend
  rw [e1, e2, e3]

end Cert.KernelIdeal.Fold

end
-- ==== Proof.Final.lean ====
/-
  The result array after the run.

  The output's block (i, j) is written back once, at the last point of its run (the point 16·i + 4·j + 3), and what is
  written back is, entry (r, cc), the four stretches of 1024 products of row 512·i + r of the dequantized X with column
  512·j + cc of the dequantized Y — by regrouping, entry (512·i + r, 512·j + cc) of the product of the two dequantized
  matrices.  The sixteen blocks tile the 2048 × 2048 array: entry (a, b) lies in block (a / 512, b / 512).  So the
  array ends holding the product, and the arguments are unchanged.
-/
import proofs.«156814_j18940805775746_1_alg».proof.Proof.Fold

set_option maxRecDepth 16384

noncomputable section

open scoped BigOperators

namespace Cert.KernelIdeal.Final

open Cert.KernelIdeal Cert.KernelIdeal.Gen
open Idealize.ShloMosaic Idealize.ShloMosaic.TcCoe Idealize.ShloMosaic.ValueIdx Cert.QuantMatmul
open Idealize.SL Idealize.SL.Sem
open Idealize.ShloMosaic.Pipeline (Dat)

variable (m : (ℓ : Loc nD τ sig) → Buf (Elt Ideal) ℓ) (ρ : Dev nD → PrngReg)

/-- The product of the two dequantized matrices as launched: what the result array will hold. -/
abbrev product (c : Dev nD) : Buf (Elt Ideal) ((c : Thread nD τ).loc main_v0) :=
  result (Fold.argX m c) (Fold.argY m c)

/-- What a flushing point writes back is its block of the product. -/
theorem flushed_eq (c : Dev nD) (t : Fin cfg0.N) (hf : (cfg0.win 2).flush t = true) :
    (dats m 0 c).flushed 2 t = ((cfg0.win 2).blk t).view.read (Elt Ideal) (product m c) := by
  have hN : t.val < 64 := lt_of_lt_of_eq t.isLt N_0
  have h3 : t.val % 4 = 3 := (flush0_2 t).mp hf
  have hi := Blocks.idx_o t
  rw [Value.flushed2]
  funext j
  show (outsAt0 m c t.val t.isLt).1 j = product m c (((cfg0.win 2).blk t).view.emb j)
  have hj0 : (j 0).val < 512 := (j 0).isLt
  have hj1 : (j 1).val < 512 := (j 1).isLt
  have e : ((cfg0.win 2).blk t).view.emb j
      = ix2 (⟨512 * (t.val / 16) + (j 0).val, by omega⟩ : Fin 2048) (⟨512 * ((t.val / 4) % 4) + (j 1).val, by omega⟩ : Fin 2048) := by
    funext a
    apply Fin.ext
    match a with
    | ⟨0, _⟩ => show win0_2.index t 0 * 512 + 1 * (j 0).val = 512 * (t.val / 16) + (j 0).val; rw [hi.1]; omega
    | ⟨1, _⟩ => show win0_2.index t 1 * 512 + 1 * (j 1).val = 512 * ((t.val / 4) % 4) + (j 1).val; rw [hi.2]; omega
  refine (Fold.out_at_flush m c t h3 j).trans ?_
  refine Eq.trans ?_ (congrArg (product m c) e).symm
  exact (result_apply_blocks (Fold.argX m c) (Fold.argY m c) ⟨512 * (t.val / 16) + (j 0).val, by omega⟩
    ⟨512 * ((t.val / 4) % 4) + (j 1).val, by omega⟩).symm

/-- An entry of the array is in point t's block iff each coordinate is in the block's range on its axis. -/
theorem mem_blk (t : Fin cfg0.N) (i : S2048x2048.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v0).slice (win0_2.rect t)).set ↔ _
  rw [View.set_slice_whole, Rect.mem_set_unit]
  exact Iff.rfl

/-- Every entry (a, b) is written back: by the last point of the run of block (a / 512, b / 512). -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  have hN : cfg0.N = 64 := N_0
  obtain ⟨t, ht⟩ : ∃ t : Fin cfg0.N, t.val = 16 * ((i 0).val / 512) + 4 * ((i 1).val / 512) + 3 :=
    ⟨⟨16 * ((i 0).val / 512) + 4 * ((i 1).val / 512) + 3, by rw [hN]; omega⟩, rfl⟩
  obtain ⟨q0, q1⟩ := Blocks.idx_o t
  refine ⟨t, (flush0_2 t).mpr (by omega), ?_⟩
  rw [mem_blk]
  intro a
  match a with
  | ⟨0, _⟩ =>
    show win0_2.index t 0 * 512 ≤ (i 0).val ∧ (i 0).val < win0_2.index t 0 * 512 + 512
    rw [q0, ht]; omega
  | ⟨1, _⟩ =>
    show win0_2.index t 1 * 512 ≤ (i 1).val ∧ (i 1).val < win0_2.index t 1 * 512 + 512
    rw [q1, ht]; omega

/-- THE RESULT ARRAY after the run is the product of the dequantized matrices. -/
theorem final (c : Dev nD) : (dats m 0 c).arrAt 2 cfg0.N = product m c :=
  (dats m 0 c).arrAt_eq_of_cover 2 (product m c) (flushed_eq m c) cover

/-- Every weakly fair execution terminates with the result array at the product and the arguments unchanged. -/
theorem run : θ_run defs (onTc (τ := τ) (main (F := Ideal))) ⟨m, fun _ => 0, ρ⟩ fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.lean ====
/-
  A quantized matrix product, blocked and accumulated, equals the plain one.

  Both programs take two integer matrices X : [2048, 4096] and Y : [4096, 2048], read each entry as the real
  (v - zero point) · scale (zero points 65 and 160; the two scales are float constants that occur with the same bit
  patterns on both sides), and multiply the two real matrices.  The reference forms each entry of the product as one
  sum of 4096 products.  The kernel tiles the result into sixteen 512 × 512 blocks and, for each block, walks the
  contracted axis in four stretches of 1024: it zeroes an accumulator at the first stretch, adds each stretch's 512 × 512
  block product to it, and writes the accumulator out after the fourth.  It also narrows the dequantized blocks to a
  16-bit float format before multiplying, which is the identity on the extended reals.

  So on the extended reals entry (a, b) of the kernel's result is
      ((0 + Σ_{kk<1024} t(kk)) + Σ_{kk<1024} t(1024 + kk)) + …  over the four stretches,
  and of the reference's  Σ_{k<4096} t(k),  with t(k) = dqx X(a, k) · dqy Y(k, b) the same terms.  Addition of extended reals
  is commutative and associative, so the two agree; no entry needs to be finite, and no precondition is used.

  The modules: Spec (the product, and the regrouping of a sum of 4096 terms as four of 1024), RefIs (the reference
  computes the product), Pieces and Payload (what one grid point leaves, and its arithmetic entry by entry), Blocks (where
  a block sits in its array), Fold (the accumulator along a run as a sum), Final (the result array after the run).  The
  three frames are the generated ones; the idealization rewrote nothing, so there is nothing to preserve.
-/
import proofs.«156814_j18940805775746_1_alg».proof.Defs
import proofs.«156814_j18940805775746_1_alg».proof.Proof.Gen.Kernel
import proofs.«156814_j18940805775746_1_alg».proof.Proof.Gen.Kernel.Skeleton
import proofs.«156814_j18940805775746_1_alg».proof.Proof.Gen.Kernel.Launch
import proofs.«156814_j18940805775746_1_alg».proof.Proof.Gen.Kernel.Points
import proofs.«156814_j18940805775746_1_alg».proof.Proof.Gen.Kernel.Frame
import proofs.«156814_j18940805775746_1_alg».proof.Proof.Gen.KernelIdeal
import proofs.«156814_j18940805775746_1_alg».proof.Proof.Gen.KernelIdeal.Skeleton
import proofs.«156814_j18940805775746_1_alg».proof.Proof.Gen.KernelIdeal.Launch
import proofs.«156814_j18940805775746_1_alg».proof.Proof.Gen.KernelIdeal.Points
import proofs.«156814_j18940805775746_1_alg».proof.Proof.Gen.KernelIdeal.Frame
import proofs.«156814_j18940805775746_1_alg».proof.Proof.Gen.ReferenceIdeal
import proofs.«156814_j18940805775746_1_alg».proof.Proof.Gen.KernelIdeal.Value
import proofs.«156814_j18940805775746_1_alg».proof.Proof.Gen.ReferenceIdeal.Run
import proofs.«156814_j18940805775746_1_alg».proof.Proof.Gen.ReferenceIdeal.Read
import proofs.«156814_j18940805775746_1_alg».proof.Proof.RefIs
import proofs.«156814_j18940805775746_1_alg».proof.Proof.Final
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on X and Y both programs end with the product of the dequantized matrices: the kernel by
    its blocked accumulation regrouped, the reference term by term. -/
theorem algebraic : Cert.algebraic_KernelIdeal_ReferenceIdeal := by
  intro m ρ m' ρ' _ hagree
  refine ⟨fun c => Cert.KernelIdeal.Final.product m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.stage_eq_result, (hagree c).1, (hagree c).2]

theorem claim : Cert.Claim := ⟨Cert.Kernel.Gen.facts, Cert.KernelIdeal.Gen.facts, Cert.ReferenceIdeal.Gen.facts,
  frame_kernel, frame_kernel_ideal, frame_reference_ideal, trivial, algebraic⟩

end Cert.Proof

end
